-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S1024x4096 : Shape := ⟨2, ![1024, 4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x4096 .f32) (main_arg8 : FVec F S1024 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x4096 .f32) (main_arg6 : FVec F S1024 .f32) (main_arg7 : FVec F S1024x4096 .f32) (main_arg8 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x2048 .f32) (main_arg2 : FVec F S8192x1024 .f32) (main_arg3 : FVec F S1024x4096 .f32) (main_arg4 : FVec F S1024 .f32) (main_arg5 : FVec F S1024x4096 .f32) (main_arg6 : FVec F S1024 .f32) (main_arg7 : FVec F S1024x4096 .f32) (main_arg8 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S8192x2048 : Shape := ⟨2, ![8192, 2048]⟩
abbrev S1024x4096 : Shape := ⟨2, ![1024, 4096]⟩
abbrev S1024 : Shape := ⟨1, ![1024]⟩
abbrev S3072x4096 : Shape := ⟨2, ![3072, 4096]⟩
abbrev S3072 : Shape := ⟨1, ![3072]⟩
abbrev S1x3072 : Shape := ⟨2, ![1, 3072]⟩
abbrev S256x1024 : Shape := ⟨2, ![256, 1024]⟩
abbrev S256x2048 : Shape := ⟨2, ![256, 2048]⟩
abbrev S256x4096 : Shape := ⟨2, ![256, 4096]⟩
abbrev S256x3072 : Shape := ⟨2, ![256, 3072]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S1024x4096, .f32⟩
  | .hbm, ⟨4, _⟩ => ⟨S1024, .f32⟩
  | .hbm, ⟨5, _⟩ => ⟨S1024x4096, .f32⟩
  | .hbm, ⟨6, _⟩ => ⟨S1024, .f32⟩
  | .hbm, ⟨7, _⟩ => ⟨S1024x4096, .f32⟩
  | .hbm, ⟨8, _⟩ => ⟨S1024, .f32⟩
  | .hbm, ⟨9, _⟩ => ⟨S3072x4096, .f32⟩
  | .hbm, ⟨10, _⟩ => ⟨S3072, .f32⟩
  | .hbm, ⟨11, _⟩ => ⟨S3072x4096, .bf16⟩
  | .hbm, ⟨12, _⟩ => ⟨S1x3072, .f32⟩
  | .hbm, ⟨13, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S3072x4096, .bf16⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S1024x4096_S1024x4096_S1024x4096_S3072x4096_d0 : Shape.Concatenates [S1024x4096, S1024x4096, S1024x4096] S3072x4096 0
  concatenates_S1024_S1024_S1024_S3072_d0 : Shape.Concatenates [S1024, S1024, S1024] S3072 0
  bitsLt_bf16_f32 : FTy.bits .bf16 < FTy.bits .f32
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  concatenates_S256x1024_S256x2048_S256x1024_S256x4096_d1 : Shape.Concatenates [S256x1024, S256x2048, S256x1024] S256x4096 1
  inb_S3072x4096_S3072x4096_0_0 : ∀ a, (![0, 0] : Fin 2 → Nat) a + S3072x4096.size a ≤ S3072x4096.size a
  h_S3072x4096 : 0 < S3072x4096.numel
  shapeCasts_S3072x4096_S3072x4096 : S3072x4096.ShapeCasts S3072x4096
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x4096_S3072x4096_S256x3072_1_1_0_0_n_n_wf : DotDims.WF S256x4096 S3072x4096 S256x3072 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x4096.size a ≤ S3072x4096.size a
  hwx0_3 : ∀ i : grid0.Coords, EltTy.bits .bf16 = 32 ∨ (Rect.block (s := S3072x4096) S3072x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)

variable [Facts₀]

def dot_S256x4096_S3072x4096_S256x3072_1_1_0_0_n_n : DotDims S256x4096 S3072x4096 S256x3072 where
  lhsContracting := [1]
  rhsContracting := [1]
  lhsNonContracting := [0]
  rhsNonContracting := [0]
  lhsBatch := []
  rhsBatch := []
  wf := dot_S256x4096_S3072x4096_S256x3072_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3072x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S1024x4096 : Shape := ⟨2, ![1024, 4096]⟩
abbrev S1024 : Shape := ⟨1, ![1024]⟩
abbrev S8192x4096 : Shape := ⟨2, ![8192, 4096]⟩
abbrev S3072x4096 : Shape := ⟨2, ![3072, 4096]⟩
abbrev S3072 : Shape := ⟨1, ![3072]⟩
abbrev S4096x3072 : Shape := ⟨2, ![4096, 3072]⟩
abbrev S8192x3072 : Shape := ⟨2, ![8192, 3072]⟩
abbrev S1x3072 : Shape := ⟨2, ![1, 3072]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S1024x4096, .f32⟩
  | .hbm, ⟨4, _⟩ => ⟨S1024, .f32⟩
  | .hbm, ⟨5, _⟩ => ⟨S1024x4096, .f32⟩
  | .hbm, ⟨6, _⟩ => ⟨S1024, .f32⟩
  | .hbm, ⟨7, _⟩ => ⟨S1024x4096, .f32⟩
  | .hbm, ⟨8, _⟩ => ⟨S1024, .f32⟩
  | .hbm, ⟨9, _⟩ => ⟨S8192x4096, .f32⟩
  | .hbm, ⟨10, _⟩ => ⟨S3072x4096, .f32⟩
  | .hbm, ⟨11, _⟩ => ⟨S3072, .f32⟩
  | .hbm, ⟨12, _⟩ => ⟨S4096x3072, .f32⟩
  | .hbm, ⟨13, _⟩ => ⟨S8192x3072, .f32⟩
  | .hbm, ⟨14, _⟩ => ⟨S1x3072, .f32⟩
  | .hbm, ⟨15, _⟩ => ⟨S8192x3072, .f32⟩
  | .hbm, ⟨16, _⟩ => ⟨S8192x3072, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  concatenates_S8192x1024_S8192x2048_S8192x1024_S8192x4096_d1 : Shape.Concatenates [S8192x1024, S8192x2048, S8192x1024] S8192x4096 1
  concatenates_S1024x4096_S1024x4096_S1024x4096_S3072x4096_d0 : Shape.Concatenates [S1024x4096, S1024x4096, S1024x4096] S3072x4096 0
  concatenates_S1024_S1024_S1024_S3072_d0 : Shape.Concatenates [S1024, S1024, S1024] S3072 0
  transposes_S3072x4096_S4096x3072_1_0 : S3072x4096.Transposes [1, 0] S4096x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  slices_S8192x3072_S8192x1024_0_0 : S8192x3072.Slices ![0, 0] S8192x1024
  bcast_S_S8192x1024 : S_.BroadcastsInDim S8192x1024 (![] : Fin 0 → Fin S8192x1024.rank)
  slices_S8192x3072_S8192x1024_0_1024 : S8192x3072.Slices ![0, 1024] S8192x1024
  slices_S8192x3072_S8192x1024_0_2048 : S8192x3072.Slices ![0, 2048] S8192x1024
  dot_S8192x4096_S4096x3072_S8192x3072_1_0_0_1_n_n_wf : DotDims.WF S8192x4096 S4096x3072 S8192x3072 [1] [0] [0] [1] [] []

variable [Facts₀]

def dot_S8192x4096_S4096x3072_S8192x3072_1_0_0_1_n_n : DotDims S8192x4096 S4096x3072 S8192x3072 where
  lhsContracting := [1]
  rhsContracting := [0]
  lhsNonContracting := [0]
  rhsNonContracting := [1]
  lhsBatch := []
  rhsBatch := []
  wf := dot_S8192x4096_S4096x3072_S8192x3072_1_0_0_1_n_n_wf

class Facts : Prop extends Facts₀ where

variable [Facts]
-- ==== Proof.FrameK.lean ====
/-
  The frame of the program: it runs to the end, faults nowhere and leaves its nine argument arrays as launched.

  The program is four host operations (the three weight matrices stacked along axis 0 and rounded to bf16, the three bias
  vectors laid end to end and recast as one row) followed by one pipelined region over 32 grid points. At point t the
  region hands the body rows 256 t .. 256 t + 255 of h, x and glo, the whole stacked weight matrix and the whole bias row
  (both fetched once, at the first point, and found unchanged afterwards), and a 256 x 1024 output buffer which the body
  overwrites whole with its one stored value and which is written back to rows 256 t .. of the result. The host
  operations write only their own four result buffers, so every argument array is found by the region as launched, and
  the region gives every array it stages for reading back unchanged.

  Stated at any float instance F: the body's arithmetic is carried as the one named term of the body's loads and never
  opened here.
-/
import proofs.«128446_j42460046688677_2_alg».proof.Proof.Gen.Kernel.Launch
import proofs.«128446_j42460046688677_2_alg».proof.Proof.Gen.Kernel.Skeleton
import proofs.«128446_j42460046688677_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core c's buffers when the region is entered: the launch memory after the four host operations. -/
abbrev atEntry (c : Dev nD) (b : Ref sig .tc) : Buf (Elt F) ((c : Thread nD τ).loc b) :=
  StableHlo.after hostOps0 (fun b => m (c, b)) b

/-- None of the four allocates. -/
theorem hostOps0_fresh : (hostOps0 : List (HloOp τ sig (Elt F))).Forall fun op => op.fresh = ∅ := by
  simp only [List.Forall]; repeat' constructor

/-- The program is the four host operations, then the region. -/
theorem hmain (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No host operation writes argument 0: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 1: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 2: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 3: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 4: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 5: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 6: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 7: the region finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 8: the region finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current buffer holds its block at every point, fetched there or not (when it is not, its block
    index has not moved since the point that fetched it), for any proof data over these arrays that leaves the block in place. -/
theorem holds_block0 {c : Dev nD} (dat : Dat τ (Elt F) Unit ℕ (UR sig nD τ) ℕ cfg0 c) (hA : dat.A 0 = atEntry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's current buffer holds its block at every point, fetched there or not (when it is not, its block
    index has not moved since the point that fetched it), for any proof data over these arrays that leaves the block in place. -/
theorem holds_block1 {c : Dev nD} (dat : Dat τ (Elt F) Unit ℕ (UR sig nD τ) ℕ cfg0 c) (hA : dat.A 1 = atEntry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's current buffer holds its block at every point, fetched there or not (when it is not, its block
    index has not moved since the point that fetched it), for any proof data over these arrays that leaves the block in place. -/
theorem holds_block2 {c : Dev nD} (dat : Dat τ (Elt F) Unit ℕ (UR sig nD τ) ℕ cfg0 c) (hA : dat.A 2 = atEntry m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's current buffer holds its block at every point, fetched there or not (when it is not, its block
    index has not moved since the point that fetched it), for any proof data over these arrays that leaves the block in place. -/
theorem holds_block3 {c : Dev nD} (dat : Dat τ (Elt F) Unit ℕ (UR sig nD τ) ℕ cfg0 c) (hA : dat.A 3 = atEntry m c (Pipeline.arrRef spec0 3))
    (hafter : ∀ t, dat.after 3 t = blk m c 3 t) (t : Fin cfg0.N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's current buffer holds its block at every point, fetched there or not (when it is not, its block
    index has not moved since the point that fetched it), for any proof data over these arrays that leaves the block in place. -/
theorem holds_block4 {c : Dev nD} (dat : Dat τ (Elt F) Unit ℕ (UR sig nD τ) ℕ cfg0 c) (hA : dat.A 4 = atEntry m c (Pipeline.arrRef spec0 4))
    (hafter : ∀ t, dat.after 4 t = blk m c 4 t) (t : Fin cfg0.N) (d) : dat.before 4 t d = blk m c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The frame from a run of the region's library post -/

/-- For any proof data over the region-entry arrays, a run ending in the library's post (every staged array at what the
    proof data says, every other unscoped buffer as the region found it) ends with the argument arrays as launched:
    h, x, glo are staged for reading, the six parameter arrays are staged by no window. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (atEntry_arg0 m c))),
      ((h c).1 1).trans (((dats 0 c).arrAt_in 1 rfl _).trans ((hA c 1).trans (atEntry_arg1 m c))),
      ((h c).1 2).trans (((dats 0 c).arrAt_in 2 rfl _).trans ((hA c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c)⟩) h

/-! ## The body's accesses: every load and the one store go through the whole buffer -/

abbrev whole0 : Rect S256x1024 := Rect.unit (s := S256x1024) ![0, 0] S256x1024.size inb_S256x1024_S256x1024_0_0
abbrev whole1 : Rect S256x2048 := Rect.unit (s := S256x2048) ![0, 0] S256x2048.size inb_S256x2048_S256x2048_0_0
abbrev whole2 : Rect S256x1024 := Rect.unit (s := S256x1024) ![0, 0] S256x1024.size inb_S256x1024_S256x1024_0_0
abbrev whole3 : Rect S3072x4096 := Rect.unit (s := S3072x4096) ![0, 0] S3072x4096.size inb_S3072x4096_S3072x4096_0_0
abbrev whole4 : Rect S1x3072 := Rect.unit (s := S1x3072) ![0, 0] S1x3072.size inb_S1x3072_S1x3072_0_0
abbrev whole5 : Rect S256x1024 := Rect.unit (s := S256x1024) ![0, 0] S256x1024.size inb_S256x1024_S256x1024_0_0

/-- The output buffer after the body, from the five input blocks: the one store's value over the whole buffer. -/
def stored (x0 : Vec F S256x1024 .f32) (x1 : Vec F S256x2048 .f32) (x2 : Vec F S256x1024 .f32) (x3 : Vec F S3072x4096 .bf16) (x4 : Vec F S1x3072 .f32) : Vec F S256x1024 .f32 :=
  View.canon [⟨whole5, k0_pay1 (View.ld x0 whole0) (View.ld x1 whole1) (View.ld x2 whole2) (View.ld x3 whole3) (View.ld x4 whole4)⟩]

/-- The one store covers the buffer. -/
theorem stored_covers (p0 : Vec F S256x1024 .f32) (y : S256x1024.Idx) :
    ∃ pc ∈ ([⟨whole5, p0⟩] : List (View.Piece (Elt F) S256x1024 .f32)), y ∈ pc.1.set :=
  View.cover_of_tiled [⟨whole5, p0⟩] S256x1024.size (by rfl) y

/-! ## The body's triple -/

set_option maxHeartbeats 1000000 in
/-- On whole buffers, the inputs' at contents xW and the output's at anything, the body runs to its continuation with
    the inputs' buffers as they were and the output's at the stored value of the inputs: five loads, a load of the output
    buffer whose value nothing uses, and the one covering store. -/
theorem body_triple (c : Dev nD) (E : Set ℕ) (i : grid0.Coords)
    (arg1 : Memref sig .tc .vmem S256x1024 .f32) (harg1 : arg1.IsWhole) (arg2 : Memref sig .tc .vmem S256x2048 .f32) (harg2 : arg2.IsWhole)
    (arg3 : Memref sig .tc .vmem S256x1024 .f32) (harg3 : arg3.IsWhole) (arg4 : Memref sig .tc .vmem S3072x4096 .bf16) (harg4 : arg4.IsWhole)
    (arg5 : Memref sig .tc .vmem S1x3072 .f32) (harg5 : arg5.IsWhole) (arg6 : Memref sig .tc .vmem S256x1024 .f32) (harg6 : arg6.IsWhole)
    (x0 : Vec F S256x1024 .f32) (x1 : Vec F S256x2048 .f32) (x2 : Vec F S256x1024 .f32) (x3 : Vec F S3072x4096 .bf16) (x4 : Vec F S1x3072 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E (cc0__cell_kernel i arg1 harg1 arg2 harg2 arg3 harg3 arg4 harg4 arg5 harg5 arg6 harg6) K := by
  simp only [cc0__cell_kernel_eq_skeleton]; unfold cc0__cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The region's proof data -/

/-- On core c: the arrays as the region finds them; after the body at point t each input's buffer at its block and the
    output's at the stored value of the five input blocks; the invariant the scoped rest and the generator register,
    untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => stored (blk m c 0 t) (blk m c 1 t) (blk m c 2 t) (blk m c 3 t) (blk m c 4 t)
  Φ _ := Pipeline.ΦA spec0 c
  q _ := fullShare
  owed _ := 0

/-- Its arrays are the region-entry contents (by projection, the host operations never unfolded). -/
theorem A_eq (c : Dev nD) (w : Fin cfg0.W) : (dats m 0 c).A w = atEntry m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) :
    (dats m 0 c).after 5 t = stored (blk m c 0 t) (blk m c 1 t) (blk m c 2 t) (blk m c 3 t) (blk m c 4 t) := by dsimp only [dats]

theorem before0 (c : Dev nD) (t : Fin cfg0.N) (d) : (dats m 0 c).before 0 t d = blk m c 0 t :=
  holds_block0 m (dats m 0 c) (A_eq m c 0) (after0 m c) t d
theorem before1 (c : Dev nD) (t : Fin cfg0.N) (d) : (dats m 0 c).before 1 t d = blk m c 1 t :=
  holds_block1 m (dats m 0 c) (A_eq m c 1) (after1 m c) t d
theorem before2 (c : Dev nD) (t : Fin cfg0.N) (d) : (dats m 0 c).before 2 t d = blk m c 2 t :=
  holds_block2 m (dats m 0 c) (A_eq m c 2) (after2 m c) t d
theorem before3 (c : Dev nD) (t : Fin cfg0.N) (d) : (dats m 0 c).before 3 t d = blk m c 3 t :=
  holds_block3 m (dats m 0 c) (A_eq m c 3) (after3 m c) t d
theorem before4 (c : Dev nD) (t : Fin cfg0.N) (d) : (dats m 0 c).before 4 t d = blk m c 4 t :=
  holds_block4 m (dats m 0 c) (A_eq m c 4) (after4 m c) t d

/-! ## The body obligation at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk m c 0 t) (blk m c 1 t) (blk m c 2 t) (blk m c 3 t) (blk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every staged array at what the proof data says and every other unscoped buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := hmain m Variants.none) (hA := A_eq m) (hΦ := fun _ _ => rfl)

/-- The frame: the program runs and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.FrameKI.lean ====
/-
  The frame of the program: it runs to the end, faults nowhere and leaves its nine argument arrays as launched.

  The program is four host operations (the three weight matrices stacked along axis 0 and rounded to bf16, the three bias
  vectors laid end to end and recast as one row) followed by one pipelined region over 32 grid points. At point t the
  region hands the body rows 256 t .. 256 t + 255 of h, x and glo, the whole stacked weight matrix and the whole bias row
  (both fetched once, at the first point, and found unchanged afterwards), and a 256 x 1024 output buffer which the body
  overwrites whole with its one stored value and which is written back to rows 256 t .. of the result. The host
  operations write only their own four result buffers, so every argument array is found by the region as launched, and
  the region gives every array it stages for reading back unchanged.

  Stated at any float instance F: the body's arithmetic is carried as the one named term of the body's loads and never
  opened here.
-/
import proofs.«128446_j42460046688677_2_alg».proof.Proof.Gen.KernelIdeal.Launch
import proofs.«128446_j42460046688677_2_alg».proof.Proof.Gen.KernelIdeal.Skeleton
import proofs.«128446_j42460046688677_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core c's buffers when the region is entered: the launch memory after the four host operations. -/
abbrev atEntry (c : Dev nD) (b : Ref sig .tc) : Buf (Elt F) ((c : Thread nD τ).loc b) :=
  StableHlo.after hostOps0 (fun b => m (c, b)) b

/-- None of the four allocates. -/
theorem hostOps0_fresh : (hostOps0 : List (HloOp τ sig (Elt F))).Forall fun op => op.fresh = ∅ := by
  simp only [List.Forall]; repeat' constructor

/-- The program is the four host operations, then the region. -/
theorem hmain (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No host operation writes argument 0: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 1: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 2: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 3: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 4: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 5: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 6: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 7: the region finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 8: the region finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current buffer holds its block at every point, fetched there or not (when it is not, its block
    index has not moved since the point that fetched it), for any proof data over these arrays that leaves the block in place. -/
theorem holds_block0 {c : Dev nD} (dat : Dat τ (Elt F) Unit ℕ (UR sig nD τ) ℕ cfg0 c) (hA : dat.A 0 = atEntry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's current buffer holds its block at every point, fetched there or not (when it is not, its block
    index has not moved since the point that fetched it), for any proof data over these arrays that leaves the block in place. -/
theorem holds_block1 {c : Dev nD} (dat : Dat τ (Elt F) Unit ℕ (UR sig nD τ) ℕ cfg0 c) (hA : dat.A 1 = atEntry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's current buffer holds its block at every point, fetched there or not (when it is not, its block
    index has not moved since the point that fetched it), for any proof data over these arrays that leaves the block in place. -/
theorem holds_block2 {c : Dev nD} (dat : Dat τ (Elt F) Unit ℕ (UR sig nD τ) ℕ cfg0 c) (hA : dat.A 2 = atEntry m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's current buffer holds its block at every point, fetched there or not (when it is not, its block
    index has not moved since the point that fetched it), for any proof data over these arrays that leaves the block in place. -/
theorem holds_block3 {c : Dev nD} (dat : Dat τ (Elt F) Unit ℕ (UR sig nD τ) ℕ cfg0 c) (hA : dat.A 3 = atEntry m c (Pipeline.arrRef spec0 3))
    (hafter : ∀ t, dat.after 3 t = blk m c 3 t) (t : Fin cfg0.N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's current buffer holds its block at every point, fetched there or not (when it is not, its block
    index has not moved since the point that fetched it), for any proof data over these arrays that leaves the block in place. -/
theorem holds_block4 {c : Dev nD} (dat : Dat τ (Elt F) Unit ℕ (UR sig nD τ) ℕ cfg0 c) (hA : dat.A 4 = atEntry m c (Pipeline.arrRef spec0 4))
    (hafter : ∀ t, dat.after 4 t = blk m c 4 t) (t : Fin cfg0.N) (d) : dat.before 4 t d = blk m c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The frame from a run of the region's library post -/

/-- For any proof data over the region-entry arrays, a run ending in the library's post (every staged array at what the
    proof data says, every other unscoped buffer as the region found it) ends with the argument arrays as launched:
    h, x, glo are staged for reading, the six parameter arrays are staged by no window. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (atEntry_arg0 m c))),
      ((h c).1 1).trans (((dats 0 c).arrAt_in 1 rfl _).trans ((hA c 1).trans (atEntry_arg1 m c))),
      ((h c).1 2).trans (((dats 0 c).arrAt_in 2 rfl _).trans ((hA c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c)⟩) h

/-! ## The body's accesses: every load and the one store go through the whole buffer -/

abbrev whole0 : Rect S256x1024 := Rect.unit (s := S256x1024) ![0, 0] S256x1024.size inb_S256x1024_S256x1024_0_0
abbrev whole1 : Rect S256x2048 := Rect.unit (s := S256x2048) ![0, 0] S256x2048.size inb_S256x2048_S256x2048_0_0
abbrev whole2 : Rect S256x1024 := Rect.unit (s := S256x1024) ![0, 0] S256x1024.size inb_S256x1024_S256x1024_0_0
abbrev whole3 : Rect S3072x4096 := Rect.unit (s := S3072x4096) ![0, 0] S3072x4096.size inb_S3072x4096_S3072x4096_0_0
abbrev whole4 : Rect S1x3072 := Rect.unit (s := S1x3072) ![0, 0] S1x3072.size inb_S1x3072_S1x3072_0_0
abbrev whole5 : Rect S256x1024 := Rect.unit (s := S256x1024) ![0, 0] S256x1024.size inb_S256x1024_S256x1024_0_0

/-- The output buffer after the body, from the five input blocks: the one store's value over the whole buffer. -/
def stored (x0 : Vec F S256x1024 .f32) (x1 : Vec F S256x2048 .f32) (x2 : Vec F S256x1024 .f32) (x3 : Vec F S3072x4096 .bf16) (x4 : Vec F S1x3072 .f32) : Vec F S256x1024 .f32 :=
  View.canon [⟨whole5, k0_pay1 (View.ld x0 whole0) (View.ld x1 whole1) (View.ld x2 whole2) (View.ld x3 whole3) (View.ld x4 whole4)⟩]

/-- The one store covers the buffer. -/
theorem stored_covers (p0 : Vec F S256x1024 .f32) (y : S256x1024.Idx) :
    ∃ pc ∈ ([⟨whole5, p0⟩] : List (View.Piece (Elt F) S256x1024 .f32)), y ∈ pc.1.set :=
  View.cover_of_tiled [⟨whole5, p0⟩] S256x1024.size (by rfl) y

/-! ## The body's triple -/

set_option maxHeartbeats 1000000 in
/-- On whole buffers, the inputs' at contents xW and the output's at anything, the body runs to its continuation with
    the inputs' buffers as they were and the output's at the stored value of the inputs: five loads, a load of the output
    buffer whose value nothing uses, and the one covering store. -/
theorem body_triple (c : Dev nD) (E : Set ℕ) (i : grid0.Coords)
    (arg1 : Memref sig .tc .vmem S256x1024 .f32) (harg1 : arg1.IsWhole) (arg2 : Memref sig .tc .vmem S256x2048 .f32) (harg2 : arg2.IsWhole)
    (arg3 : Memref sig .tc .vmem S256x1024 .f32) (harg3 : arg3.IsWhole) (arg4 : Memref sig .tc .vmem S3072x4096 .bf16) (harg4 : arg4.IsWhole)
    (arg5 : Memref sig .tc .vmem S1x3072 .f32) (harg5 : arg5.IsWhole) (arg6 : Memref sig .tc .vmem S256x1024 .f32) (harg6 : arg6.IsWhole)
    (x0 : Vec F S256x1024 .f32) (x1 : Vec F S256x2048 .f32) (x2 : Vec F S256x1024 .f32) (x3 : Vec F S3072x4096 .bf16) (x4 : Vec F S1x3072 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E (cc0__cell_kernel i arg1 harg1 arg2 harg2 arg3 harg3 arg4 harg4 arg5 harg5 arg6 harg6) K := by
  simp only [cc0__cell_kernel_eq_skeleton]; unfold cc0__cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The region's proof data -/

/-- On core c: the arrays as the region finds them; after the body at point t each input's buffer at its block and the
    output's at the stored value of the five input blocks; the invariant the scoped rest and the generator register,
    untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => stored (blk m c 0 t) (blk m c 1 t) (blk m c 2 t) (blk m c 3 t) (blk m c 4 t)
  Φ _ := Pipeline.ΦA spec0 c
  q _ := fullShare
  owed _ := 0

/-- Its arrays are the region-entry contents (by projection, the host operations never unfolded). -/
theorem A_eq (c : Dev nD) (w : Fin cfg0.W) : (dats m 0 c).A w = atEntry m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) :
    (dats m 0 c).after 5 t = stored (blk m c 0 t) (blk m c 1 t) (blk m c 2 t) (blk m c 3 t) (blk m c 4 t) := by dsimp only [dats]

theorem before0 (c : Dev nD) (t : Fin cfg0.N) (d) : (dats m 0 c).before 0 t d = blk m c 0 t :=
  holds_block0 m (dats m 0 c) (A_eq m c 0) (after0 m c) t d
theorem before1 (c : Dev nD) (t : Fin cfg0.N) (d) : (dats m 0 c).before 1 t d = blk m c 1 t :=
  holds_block1 m (dats m 0 c) (A_eq m c 1) (after1 m c) t d
theorem before2 (c : Dev nD) (t : Fin cfg0.N) (d) : (dats m 0 c).before 2 t d = blk m c 2 t :=
  holds_block2 m (dats m 0 c) (A_eq m c 2) (after2 m c) t d
theorem before3 (c : Dev nD) (t : Fin cfg0.N) (d) : (dats m 0 c).before 3 t d = blk m c 3 t :=
  holds_block3 m (dats m 0 c) (A_eq m c 3) (after3 m c) t d
theorem before4 (c : Dev nD) (t : Fin cfg0.N) (d) : (dats m 0 c).before 4 t d = blk m c 4 t :=
  holds_block4 m (dats m 0 c) (A_eq m c 4) (after4 m c) t d

/-! ## The body obligation at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk m c 0 t) (blk m c 1 t) (blk m c 2 t) (blk m c 3 t) (blk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every staged array at what the proof data says and every other unscoped buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := hmain m Variants.none) (hA := A_eq m) (hΦ := fun _ _ => rfl)

/-- The frame: the program runs and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.Spec.lean ====
/-
  The gated cell as a function on the extended reals, element by element.

  For one row of activations a in EReal^4096 (the three inputs h, x, glo of a batch row laid end to end), stacked
  weights W in EReal^(3072 x 4096) and stacked biases β in EReal^3072, gate n is (∑ₖ aₖ · W n k) + β n. Column j < 1024
  of the result takes the three gates j, 1024 + j, 2048 + j:
    α = σ(σ(g_i) − σ(g_f)),  result = α · tanh(g_c) + (1 − α) · h,
  with σ z = 1 / (1 + e^(−z)) on the extended reals (σ ⊥ = 0, σ ⊤ = 1). The literal 1 of 1 − α is kept as the
  binary word both programs print for it.
-/
import Idealize.ShloMosaic.PureOps.Ideal
import Idealize.ShloMosaic.PureOps.Ideal.Laws
import Idealize.ShloMosaic.PureOps.IdealRules
import Idealize.ShloMosaic.Lib.ValueIdx

noncomputable section

namespace Cert.GatedCell

open Idealize.ShloMosaic

/-- The word both programs print for the literal 1.0. -/
abbrev oneWord : EReal := Ideal.ofBits .f32 0x3F800000#32

/-- It denotes the real number one. -/
theorem oneWord_eq : oneWord = 1 := IdealRules.sign_bit.ideal_onePat .f32

/-- Entry k of three vectors of lengths 1024, 2048, 1024 laid end to end. -/
def pick3 (k : Fin 4096) (a : Fin 1024 → EReal) (b : Fin 2048 → EReal) (c : Fin 1024 → EReal) : EReal :=
  if h1 : k.val < 1024 then a ⟨k.val, h1⟩
  else if h2 : k.val < 3072 then b ⟨k.val - 1024, by omega⟩
  else c ⟨k.val - 3072, by omega⟩

/-- Gate n's pre-activation: the row against row n of the stacked weights, plus the stacked bias. -/
def gate (row : Fin 4096 → EReal) (W : Fin 3072 → Fin 4096 → EReal) (β : Fin 3072 → EReal) (n : Fin 3072) : EReal :=
  (∑ k : Fin 4096, row k * W n k) + β n

/-- The blend of the candidate tanh g_c and the previous state hh by the two-way softmax weight σ(σ g_i − σ g_f). -/
def mix (gi gf gc hh : EReal) : EReal :=
  Ideal.logistic (Ideal.logistic gi - Ideal.logistic gf) * Ideal.tanh gc
    + (oneWord - Ideal.logistic (Ideal.logistic gi - Ideal.logistic gf)) * hh

/-- Column j of a result row. -/
def cellAt (row : Fin 4096 → EReal) (W : Fin 3072 → Fin 4096 → EReal) (β : Fin 3072 → EReal) (hh : EReal) (j : Fin 1024) : EReal :=
  mix (gate row W β ⟨j.val, by omega⟩) (gate row W β ⟨1024 + j.val, by omega⟩) (gate row W β ⟨2048 + j.val, by omega⟩) hh

/-- The sigmoid spelt with quotient, sum, exponential and negation over the printed word for one is σ. -/
theorem logistic_spelt (z : EReal) : Ideal.div oneWord (oneWord + Ideal.exp (-z)) = Ideal.logistic z := by
  rw [oneWord_eq]; rfl

end Cert.GatedCell

end
-- ==== Proof.Payload.lean ====
/-
  The kernel body's stored block, read at one element, is the gated cell of the specification.

  The body joins the three loaded blocks h, x, glo side by side into one [256, 4096] block, multiplies it
  against the stacked weights with the contraction on axis 1 of both operands, adds the bias row to every
  row, cuts the [256, 3072] result into three column bands of width 1024, and blends. Read at (r, j) the
  three bands are the gates j, 1024 + j, 2048 + j of row r.
-/
import proofs.«128446_j42460046688677_2_alg».proof.Proof.Spec
import proofs.«128446_j42460046688677_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.GatedCell.Ker

open Cert.KernelIdeal Cert.KernelIdeal.Gen Idealize.ShloMosaic Idealize.ShloMosaic.ValueIdx

/-! ## The bias -/

/-- The bias row, cast to its own shape and repeated down the rows, read at (r, n). -/
theorem bias_apply (b : FVec Ideal S1x3072 .f32) (hc : S1x3072.ShapeCasts S1x3072) (hb : S1x3072.Broadcasts S256x3072)
    (r : Fin 256) (n : Fin 3072) :
    broadcastTo S256x3072 (shapeCast S1x3072 b hc) hb (ix2 r n) = b (ix2 (0 : Fin 1) n) := by
  rw [shapeCast_self]
  exact broadcastTo_1b_ab_apply b hb r n

/-! ## The product: both operands contracted on their second axis -/

/-- The product's dimension record: rows of the left operand against rows of the right one. -/
abbrev D : DotDims S256x4096 S3072x4096 S256x3072 := dot_S256x4096_S3072x4096_S256x3072_1_1_0_0_n_n

/-- The left operand's row is the result's row. -/
theorem lhs_row (i : S256x3072.Idx) (q : D.contr.Idx) : (D.lhsIdx i q 0).val = (i 0).val := by
  unfold DotDims.lhsIdx
  rw [dif_neg (show ¬(0 : Fin S256x4096.rank) ∈ D.lhsBatch by decide),
    dif_pos (show (0 : Fin S256x4096.rank) ∈ D.lhsNonContracting by decide)]
  rfl

/-- The left operand's column is the summation index. -/
theorem lhs_col (i : S256x3072.Idx) (q : D.contr.Idx) : (D.lhsIdx i q 1).val = (q ⟨0, by decide⟩).val :=
  D.lhsIdx_val_of_single rfl i q

/-- The right operand's row is the result's column. -/
theorem rhs_row (i : S256x3072.Idx) (q : D.contr.Idx) : (D.rhsIdx i q 0).val = (i 1).val := by
  unfold DotDims.rhsIdx
  rw [dif_neg (show ¬(0 : Fin S3072x4096.rank) ∈ D.rhsBatch by decide),
    dif_pos (show (0 : Fin S3072x4096.rank) ∈ D.rhsNonContracting by decide)]
  rfl

/-- The right operand's column is the summation index. -/
theorem rhs_col (i : S256x3072.Idx) (q : D.contr.Idx) : (D.rhsIdx i q 1).val = (q ⟨0, by decide⟩).val :=
  D.rhsIdx_val_of_single rfl i q

/-- Into the zero block the product at (r, n) is the sum over k of A (r, k) · B (n, k). -/
theorem mm_apply (A : FVec Ideal S256x4096 .bf16) (B : FVec Ideal S3072x4096 .bf16) (r : Fin 256) (n : Fin 3072) :
    matmul D none A B (constant (F := Ideal) S256x3072 .f32 0x00000000#32) (ix2 r n)
      = ∑ k : Fin 4096, A (ix2 r k) * B (ix2 n k) := by
  simp only [matmul]
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 r n) ((contrEquiv1 D 4096 rfl rfl).symm k) = ix2 r k := funext fun a => Fin.ext (by
    match a with
    | ⟨0, _⟩ => exact lhs_row _ _
    | ⟨1, _⟩ => exact (lhs_col _ _).trans hk)
  have er : D.rhsIdx (ix2 r n) ((contrEquiv1 D 4096 rfl rfl).symm k) = ix2 n k := funext fun a => Fin.ext (by
    match a with
    | ⟨0, _⟩ => exact rhs_row _ _
    | ⟨1, _⟩ => exact (rhs_col _ _).trans hk)
  rw [el, er]

/-! ## The three blocks side by side -/

/-- Three blocks of widths 1024, 2048, 1024 joined along the columns, read at (r, k): the block whose span
    holds k, at k less the widths before it. -/
theorem cat_apply (a : FVec Ideal S256x1024 .bf16) (b : FVec Ideal S256x2048 .bf16) (c : FVec Ideal S256x1024 .bf16)
    (h : Shape.Concatenates [S256x1024, S256x2048, S256x1024] S256x4096 1) (r : Fin 256) (k : Fin 4096) :
    concatenate S256x4096 1 [⟨S256x1024, a⟩, ⟨S256x2048, b⟩, ⟨S256x1024, c⟩] h (ix2 r k)
      = pick3 k (fun x => a (ix2 r x)) (fun x => b (ix2 r x)) (fun x => c (ix2 r x)) := by
  unfold pick3
  by_cases h1 : k.val < 1024
  · rw [dif_pos h1]
    refine concatenate_apply_piece 1 [⟨S256x1024, a⟩, ⟨S256x2048, b⟩, ⟨S256x1024, c⟩] h (ix2 r k) 0
      (show 0 < 3 by decide) S256x1024 a rfl rfl 0 rfl (ix2 r ⟨k.val, h1⟩)
      (fun q => ?_) (Nat.zero_add _)
    match q with
    | ⟨0, _⟩ => exact fun _ => rfl
    | ⟨1, _⟩ => exact fun hq => absurd rfl hq
  · rw [dif_neg h1]
    by_cases h2 : k.val < 3072
    · rw [dif_pos h2]
      refine concatenate_apply_piece 1 [⟨S256x1024, a⟩, ⟨S256x2048, b⟩, ⟨S256x1024, c⟩] h (ix2 r k) 1
        (show 1 < 3 by decide) S256x2048 b rfl rfl 1024 rfl
        (ix2 r ⟨k.val - 1024, by omega⟩) (fun q => ?_) (by show 1024 + (k.val - 1024) = k.val; omega)
      match q with
      | ⟨0, _⟩ => exact fun _ => rfl
      | ⟨1, _⟩ => exact fun hq => absurd rfl hq
    · rw [dif_neg h2]
      refine concatenate_apply_piece 1 [⟨S256x1024, a⟩, ⟨S256x2048, b⟩, ⟨S256x1024, c⟩] h (ix2 r k) 2
        (show 2 < 3 by decide) S256x1024 c rfl rfl 3072 rfl
        (ix2 r ⟨k.val - 3072, by omega⟩) (fun q => ?_) (by show 3072 + (k.val - 3072) = k.val; omega)
      match q with
      | ⟨0, _⟩ => exact fun _ => rfl
      | ⟨1, _⟩ => exact fun hq => absurd rfl hq

/-! ## The pre-activations -/

/-- The three gates' pre-activations as one [256, 3072] block: the product plus the bias. -/
def pre (x0 : Vec Ideal S256x1024 .f32) (x1 : Vec Ideal S256x2048 .f32) (x2 : Vec Ideal S256x1024 .f32)
    (x7 : Vec Ideal S3072x4096 .bf16) (x10 : Vec Ideal S1x3072 .f32) : FVec Ideal S256x3072 .f32 :=
  addf
    (matmul (φ₁ := .bf16) (φ₂ := .bf16) dot_S256x4096_S3072x4096_S256x3072_1_1_0_0_n_n none
      (concatenate S256x4096 1
        [⟨S256x1024, truncf .bf16 x0 bitsLt_bf16_f32⟩, ⟨S256x2048, truncf .bf16 x1 bitsLt_bf16_f32⟩,
          ⟨S256x1024, truncf .bf16 x2 bitsLt_bf16_f32⟩]
        concatenates_S256x1024_S256x2048_S256x1024_S256x4096_d1)
      (shapeCast S3072x4096 x7 shapeCasts_S3072x4096_S3072x4096)
      (constant S256x3072 .f32 0x00000000#32))
    (broadcastTo S256x3072 (shapeCast S1x3072 x10 shapeCasts_S1x3072_S1x3072) broadcasts_S1x3072_S256x3072)

/-- Read at (r, n) it is gate n of row r: the joined row against row n of the weights, plus bias n. -/
theorem pre_apply (x0 : Vec Ideal S256x1024 .f32) (x1 : Vec Ideal S256x2048 .f32) (x2 : Vec Ideal S256x1024 .f32)
    (x7 : Vec Ideal S3072x4096 .bf16) (x10 : Vec Ideal S1x3072 .f32) (r : Fin 256) (n : Fin 3072) :
    pre x0 x1 x2 x7 x10 (ix2 r n)
      = gate (fun k => pick3 k (fun a => x0 (ix2 r a)) (fun a => x1 (ix2 r a)) (fun a => x2 (ix2 r a)))
          (fun n k => x7 (ix2 n k)) (fun n => x10 (ix2 (0 : Fin 1) n)) n := by
  unfold pre gate
  refine (addf_apply _ _ _).trans ?_
  refine congrArg₂ (· + ·) ?_ (bias_apply x10 _ _ r n)
  refine (mm_apply _ _ r n).trans ?_
  refine Finset.sum_congr rfl fun k _ => ?_
  refine congrArg₂ (· * ·) (cat_apply _ _ _ _ r k) ?_
  rw [shapeCast_self]

/-! ## The blend -/

/-- The body's tail over any [256, 3072] block P of pre-activations and any previous state: at (r, j) the
    three column bands read P at columns j, 1024 + j, 2048 + j, and every other operation acts element by
    element. -/
theorem blend_apply (P : FVec Ideal S256x3072 .f32) (h0 : S256x3072.Slices ![0, 0] S256x1024)
    (h1 : S256x3072.Slices ![0, 1024] S256x1024) (h2 : S256x3072.Slices ![0, 2048] S256x1024)
    (hh : FVec Ideal S256x1024 .f32) (r : Fin 256) (j : Fin 1024) :
    addf
        (mulf
          (logistic (subf (logistic (extractStridedSlice S256x1024 ![0, 0] P h0))
            (logistic (extractStridedSlice S256x1024 ![0, 1024] P h1))))
          (tanh (extractStridedSlice S256x1024 ![0, 2048] P h2)))
        (mulf
          (subf (broadcast S256x1024 (Scalar.ofBits (F := Ideal) .f32 0x3F800000#32))
            (logistic (subf (logistic (extractStridedSlice S256x1024 ![0, 0] P h0))
              (logistic (extractStridedSlice S256x1024 ![0, 1024] P h1)))))
          hh)
        (ix2 r j)
      = mix (P (ix2 r ⟨j.val, by omega⟩)) (P (ix2 r ⟨1024 + j.val, by omega⟩)) (P (ix2 r ⟨2048 + j.val, by omega⟩))
          (hh (ix2 r j)) := by
  rw [← slice2_axis1_apply 0 P h0 r j ⟨j.val, by omega⟩ (Nat.zero_add _).symm,
    ← slice2_axis1_apply 1024 P h1 r j ⟨1024 + j.val, by omega⟩ rfl,
    ← slice2_axis1_apply 2048 P h2 r j ⟨2048 + j.val, by omega⟩ rfl]
  rfl

/-! ## The stored value -/

/-- The value the body stores at (r, j) is column j of the gated cell on row r. -/
theorem pay_apply (x0 : Vec Ideal S256x1024 .f32) (x1 : Vec Ideal S256x2048 .f32) (x2 : Vec Ideal S256x1024 .f32)
    (x7 : Vec Ideal S3072x4096 .bf16) (x10 : Vec Ideal S1x3072 .f32) (r : Fin 256) (j : Fin 1024) :
    Cert.KernelIdeal.Gen.k0_pay1 (F := Ideal) x0 x1 x2 x7 x10 (ValueIdx.ix2 r j)
      = Cert.GatedCell.cellAt
          (fun k => Cert.GatedCell.pick3 k (fun a => x0 (ValueIdx.ix2 r a)) (fun a => x1 (ValueIdx.ix2 r a))
            (fun a => x2 (ValueIdx.ix2 r a)))
          (fun n k => x7 (ValueIdx.ix2 n k))
          (fun n => x10 (ValueIdx.ix2 (0 : Fin 1) n))
          (x0 (ValueIdx.ix2 r j)) j := by
  refine (blend_apply (pre x0 x1 x2 x7 x10) _ _ _ x0 r j).trans ?_
  unfold cellAt
  rw [pre_apply, pre_apply, pre_apply]

end Cert.GatedCell.Ker

end
-- ==== Proof.KernelValue.lean ====
/-
  The kernel's result array as one function of the argument arrays.

  At grid point t the body is handed rows 256 t .. 256 t + 255 of h, x and glo, the whole stacked weight matrix and the
  whole bias row, and what it stores at (r, j) is column j of the gated cell of row 256 t + r. The 32 points write back
  the 32 blocks of 256 rows that tile the 8192 x 1024 result, so after the run the result array is the gated cell of every
  batch row: entry (b, j) depends on row b of h, x, glo and on rows j, 1024 + j, 2048 + j of the stacked weights and biases.
  The host operations in front of the region leave the stacked weights (rounded to bf16, the identity on the extended
  reals) and the stacked biases recast as one row.
-/
import proofs.«128446_j42460046688677_2_alg».proof.Proof.FrameKI
import proofs.«128446_j42460046688677_2_alg».proof.Proof.Spec
import proofs.«128446_j42460046688677_2_alg».proof.Proof.Payload
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.GatedCell.KV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.GatedCell.Ker (pay_apply)

variable (m : (ℓ : Loc nD τ sig) → Buf (Elt Ideal) ℓ) (ρ : Dev nD → PrngReg)

/-! ## The specification at the argument arrays -/

/-- The stacked weights: the three weight matrices laid one under the other. -/
abbrev stackedW (c : Dev nD) : S3072x4096.Idx → EReal :=
  concatenate S3072x4096 0 [⟨S1024x4096, m ((c : Thread nD τ).loc main_arg3)⟩, ⟨S1024x4096, m ((c : Thread nD τ).loc main_arg5)⟩, ⟨S1024x4096, m ((c : Thread nD τ).loc main_arg7)⟩] concatenates_S1024x4096_S1024x4096_S1024x4096_S3072x4096_d0

/-- The stacked biases: the three bias vectors laid end to end. -/
abbrev stackedB (c : Dev nD) : S3072.Idx → EReal :=
  concatenate S3072 0 [⟨S1024, m ((c : Thread nD τ).loc main_arg4)⟩, ⟨S1024, m ((c : Thread nD τ).loc main_arg6)⟩, ⟨S1024, m ((c : Thread nD τ).loc main_arg8)⟩] concatenates_S1024_S1024_S1024_S3072_d0

/-- Entry (b, j) of the gated cell of the argument arrays. -/
def cellOf (c : Dev nD) (b : Fin 8192) (j : Fin 1024) : EReal :=
  cellAt (fun k => pick3 k (fun a => m ((c : Thread nD τ).loc main_arg0) (ix2 b a)) (fun a => m ((c : Thread nD τ).loc main_arg1) (ix2 b a))
      (fun a => m ((c : Thread nD τ).loc main_arg2) (ix2 b a)))
    (fun n k => stackedW m c (ix2 n k)) (fun n => stackedB m c (ix1 n))
    (m ((c : Thread nD τ).loc main_arg0) (ix2 b j)) j

/-- The gated cell of the argument arrays, as an array. -/
def G (c : Dev nD) : S8192x1024.Idx → EReal := fun i => cellOf m c (i 0) (i 1)

/-! ## The arrays the host operations leave for the region -/

theorem entry_weights (c : Dev nD) : (atEntry m c main_v2 : S3072x4096.Idx → EReal) = stackedW m c := by
  dsimp only [atEntry, hostOps0]; after_results; rfl

theorem entry_bias (c : Dev nD) :
    (atEntry m c main_v3 : S1x3072.Idx → EReal) = shapeCast S1x3072 (stackedB m c) shapeCasts_S3072_S1x3072 := by
  dsimp only [atEntry, hostOps0]; after_results; rfl

/-! ## Where each window's block sits at a point -/

/-- The block indices over the grid: h, x, glo and the result move down one block of rows per point; the weights and
    the bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 := lt_of_lt_of_eq t.isLt N_0

/-- Row r of the block at point t is row 256 t + r of the array. -/
def rowIx (t : Fin cfg0.N) (r : Fin 256) : Fin 8192 := ⟨t.val * 256 + r.val, by have := t_lt t; omega⟩

theorem read_h (c : Dev nD) (t : Fin cfg0.N) (r : Fin 256) (a : Fin 1024) :
    blk m c 0 t (ix2 r a) = m ((c : Thread nD τ).loc main_arg0) (ix2 (rowIx t r) a) := by
  show atEntry m c main_arg0 (((cfg0.win 0).blk t).view.emb (ix2 r a)) = _
  rw [atEntry_arg0]
  refine congrArg _ (funext fun d => Fin.ext ?_)
  obtain ⟨e0, e1, -⟩ := idx_facts t
  match d with
  | ⟨0, _⟩ => show win0_0.index t (0 : Fin 2) * 256 + 1 * r.val = t.val * 256 + r.val; rw [e0]; omega
  | ⟨1, _⟩ => show win0_0.index t (1 : Fin 2) * 1024 + 1 * a.val = a.val; rw [e1]; omega

theorem read_x (c : Dev nD) (t : Fin cfg0.N) (r : Fin 256) (a : Fin 2048) :
    blk m c 1 t (ix2 r a) = m ((c : Thread nD τ).loc main_arg1) (ix2 (rowIx t r) a) := by
  show atEntry m c main_arg1 (((cfg0.win 1).blk t).view.emb (ix2 r a)) = _
  rw [atEntry_arg1]
  refine congrArg _ (funext fun d => Fin.ext ?_)
  obtain ⟨-, -, e0, e1, -⟩ := idx_facts t
  match d with
  | ⟨0, _⟩ => show win0_1.index t (0 : Fin 2) * 256 + 1 * r.val = t.val * 256 + r.val; rw [e0]; omega
  | ⟨1, _⟩ => show win0_1.index t (1 : Fin 2) * 2048 + 1 * a.val = a.val; rw [e1]; omega

theorem read_glo (c : Dev nD) (t : Fin cfg0.N) (r : Fin 256) (a : Fin 1024) :
    blk m c 2 t (ix2 r a) = m ((c : Thread nD τ).loc main_arg2) (ix2 (rowIx t r) a) := by
  show atEntry m c main_arg2 (((cfg0.win 2).blk t).view.emb (ix2 r a)) = _
  rw [atEntry_arg2]
  refine congrArg _ (funext fun d => Fin.ext ?_)
  obtain ⟨-, -, -, -, e0, e1, -⟩ := idx_facts t
  match d with
  | ⟨0, _⟩ => show win0_2.index t (0 : Fin 2) * 256 + 1 * r.val = t.val * 256 + r.val; rw [e0]; omega
  | ⟨1, _⟩ => show win0_2.index t (1 : Fin 2) * 1024 + 1 * a.val = a.val; rw [e1]; omega

theorem read_W (c : Dev nD) (t : Fin cfg0.N) (n : Fin 3072) (k : Fin 4096) :
    blk m c 3 t (ix2 n k) = stackedW m c (ix2 n k) := by
  show (atEntry m c main_v2 : S3072x4096.Idx → EReal) (((cfg0.win 3).blk t).view.emb (ix2 n k)) = _
  rw [entry_weights]
  refine congrArg _ (funext fun d => Fin.ext ?_)
  obtain ⟨-, -, -, -, -, -, e0, e1, -⟩ := idx_facts t
  match d with
  | ⟨0, _⟩ => show win0_3.index t (0 : Fin 2) * 3072 + 1 * n.val = n.val; rw [e0]; omega
  | ⟨1, _⟩ => show win0_3.index t (1 : Fin 2) * 4096 + 1 * k.val = k.val; rw [e1]; omega

theorem read_B (c : Dev nD) (t : Fin cfg0.N) (n : Fin 3072) :
    blk m c 4 t (ix2 (0 : Fin 1) n) = stackedB m c (ix1 n) := by
  show (atEntry m c main_v3 : S1x3072.Idx → EReal) (((cfg0.win 4).blk t).view.emb (ix2 (0 : Fin 1) n)) = _
  rw [entry_bias]
  have e : ((cfg0.win 4).blk t).view.emb (ix2 (0 : Fin 1) n) = ix2 (0 : Fin 1) n := by
    refine funext fun d => Fin.ext ?_
    obtain ⟨-, -, -, -, -, -, -, -, e0, e1, -⟩ := idx_facts t
    match d with
    | ⟨0, _⟩ => show win0_4.index t (0 : Fin 2) * 1 + 1 * 0 = 0; rw [e0]
    | ⟨1, _⟩ => show win0_4.index t (1 : Fin 2) * 3072 + 1 * n.val = n.val; rw [e1]; omega
  rw [e]
  exact shapeCast_a_1a_apply (stackedB m c) shapeCasts_S3072_S1x3072 (0 : Fin 1) n

theorem out_at (t : Fin cfg0.N) (r : Fin 256) (j : Fin 1024) :
    ((cfg0.win 5).blk t).view.emb (ix2 r j) = ix2 (rowIx t r) j := by
  refine funext fun d => Fin.ext ?_
  obtain ⟨-, -, -, -, -, -, -, -, -, -, e0, e1⟩ := idx_facts t
  match d with
  | ⟨0, _⟩ => show win0_5.index t (0 : Fin 2) * 256 + 1 * r.val = t.val * 256 + r.val; rw [e0]; omega
  | ⟨1, _⟩ => show win0_5.index t (1 : Fin 2) * 1024 + 1 * j.val = j.val; rw [e1]; omega

/-! ## What a point writes back, and the whole array -/

theorem hz : (![0, 0] : Fin 2 → Nat) = fun _ => 0 := funext fun a => by fin_cases a <;> rfl

/-- What point t writes back is block t of the gated cell of the argument arrays. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after5]
  unfold stored
  rw [View.canon_unit_zero hz]
  simp only [View.ld_unit_zero (S := S256x1024) hz, View.ld_unit_zero (S := S256x2048) hz, View.ld_unit_zero (S := S3072x4096) hz,
    View.ld_unit_zero (S := S1x3072) hz]
  funext y
  obtain ⟨r, j, rfl⟩ : ∃ (r : Fin 256) (j : Fin 1024), y = ix2 r j := ⟨y 0, y 1, eq_ix2 y⟩
  show k0_pay1 (F := Ideal) (blk m c 0 t) (blk m c 1 t) (blk m c 2 t) (blk m c 3 t) (blk m c 4 t) (ix2 r j)
    = G m c (((cfg0.win 5).blk t).view.emb (ix2 r j))
  refine (pay_apply (blk m c 0 t) (blk m c 1 t) (blk m c 2 t) (blk m c 3 t) (blk m c 4 t) r j).trans ?_
  rw [out_at]
  show _ = cellOf m c (rowIx t r) j
  unfold cellOf
  simp only [read_h, read_x, read_glo, read_W, read_B]

/-- An index of the result is in point t's block iff each coordinate is in the block's range on its axis. -/
theorem mem_blk (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4).slice (win0_5.rect t)).set ↔ _
  rw [View.set_slice_whole, Rect.mem_set_unit]
  exact Iff.rfl

/-- Every index of the result is in the block of the point its row falls in. -/
theorem cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 32 := N_0
  refine ⟨⟨(i 0).val / 256, by rw [hN]; omega⟩, flush0_5 _, ?_⟩
  rw [mem_blk]
  obtain ⟨-, -, -, -, -, -, -, -, -, -, e0, e1⟩ := idx_facts ⟨(i 0).val / 256, by rw [hN]; omega⟩
  intro a
  match a with
  | ⟨0, _⟩ =>
    show win0_5.index _ (0 : Fin 2) * 256 ≤ (i 0).val ∧ (i 0).val < win0_5.index _ (0 : Fin 2) * 256 + 256
    rw [e0]; show (i 0).val / 256 * 256 ≤ (i 0).val ∧ (i 0).val < (i 0).val / 256 * 256 + 256; omega
  | ⟨1, _⟩ =>
    show win0_5.index _ (1 : Fin 2) * 1024 ≤ (i 1).val ∧ (i 1).val < win0_5.index _ (1 : Fin 2) * 1024 + 1024
    rw [e1]; omega

/-- After the run the result array is the gated cell of the argument arrays. -/
theorem final (c : Dev nD) : (dats m 0 c).arrAt 5 cfg0.N = G m c :=
  (dats m 0 c).arrAt_eq_of_cover 5 (G m c) (fun t _ => flushed_eq m c t) cover

/-! ## The run -/

/-- Every weakly fair execution of the program ends with the result array at the gated cell of the argument arrays and
    the argument arrays as launched. -/
theorem run : θ_run defs (onTc (τ := τ) (main (F := Ideal))) ⟨m, fun _ => 0, ρ⟩ fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 5).trans (final m c),
      ((h c).1 0).trans (((dats m 0 c).arrAt_in 0 rfl _).trans ((A_eq m c 0).trans (atEntry_arg0 m c))),
      ((h c).1 1).trans (((dats m 0 c).arrAt_in 1 rfl _).trans ((A_eq m c 1).trans (atEntry_arg1 m c))),
      ((h c).1 2).trans (((dats m 0 c).arrAt_in 2 rfl _).trans ((A_eq m c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c)⟩)
    (run_main m ρ)

end Cert.GatedCell.KV

end
-- ==== Proof.RefSide.lean ====
/-
  The reference's result, read one element at a time, is the gated cell of the specification.

  The reference lays the three activation arrays of a batch row end to end (4096 columns), stacks the three weight
  matrices (3072 rows) and the three bias vectors (3072 entries), forms every gate as one matrix product plus the
  bias, cuts the gates into three bands of 1024 columns, and blends tanh of the third band with the first
  activation array by the weight σ(σ g_i − σ g_f). Here every step is read at an index and the outcome is
  matched with cellAt.
-/
import proofs.«128446_j42460046688677_2_alg».proof.Proof.Spec
import proofs.«128446_j42460046688677_2_alg».proof.Proof.Gen.ReferenceIdeal.Read
import Idealize.ShloMosaic.Lib.Pipeline.Value
import Idealize.ShloMosaic.Lib.ValueIdx
import Idealize.ShloMosaic.PureOps.Ideal.Laws

noncomputable section

namespace Cert.GatedCell.Ref

open Cert.ReferenceIdeal Cert.ReferenceIdeal.Gen Idealize.ShloMosaic Idealize.ShloMosaic.TcCoe Idealize.SL.Sem Idealize.ShloMosaic.StableHlo
open Idealize.ShloMosaic.ValueIdx

/-- The activations of batch row b laid end to end, at column k: the first array below column 1024, the second
    below 3072, the third from there on. -/
theorem acts_apply (x0 : (⟨S8192x1024, .f32⟩ : BufTy).Contents (Elt Ideal)) (x1 : (⟨S8192x2048, .f32⟩ : BufTy).Contents (Elt Ideal))
    (x2 : (⟨S8192x1024, .f32⟩ : BufTy).Contents (Elt Ideal)) (b : Fin 8192) (k : Fin 4096) :
    Read.val_main_v0 (F := Ideal) x0 x1 x2 (ix2 b k)
      = pick3 k (fun a => x0 (ix2 b a)) (fun a => x1 (ix2 b a)) (fun a => x2 (ix2 b a)) := by
  unfold pick3 Read.val_main_v0
  split
  · next h1 =>
    exact concatenate_apply_piece (1 : Fin S8192x4096.rank) _ _ (ix2 b k) 0 (by show (0 : Nat) < 3; decide) S8192x1024 x0 rfl rfl 0 rfl
      (ix2 b ⟨k.val, h1⟩)
      (fun d => match d with | ⟨0, _⟩ => fun _ => rfl | ⟨1, _⟩ => fun h => absurd rfl h)
      (by show 0 + k.val = k.val; omega)
  · next h1 =>
    split
    · next h2 =>
      exact concatenate_apply_piece (1 : Fin S8192x4096.rank) _ _ (ix2 b k) 1 (by show (1 : Nat) < 3; decide) S8192x2048 x1 rfl rfl 1024 rfl
        (ix2 b ⟨k.val - 1024, by omega⟩)
        (fun d => match d with | ⟨0, _⟩ => fun _ => rfl | ⟨1, _⟩ => fun h => absurd rfl h)
        (by show 1024 + (k.val - 1024) = k.val; omega)
    · next h2 =>
      exact concatenate_apply_piece (1 : Fin S8192x4096.rank) _ _ (ix2 b k) 2 (by show (2 : Nat) < 3; decide) S8192x1024 x2 rfl rfl 3072 rfl
        (ix2 b ⟨k.val - 3072, by omega⟩)
        (fun d => match d with | ⟨0, _⟩ => fun _ => rfl | ⟨1, _⟩ => fun h => absurd rfl h)
        (by show 3072 + (k.val - 3072) = k.val; omega)

/-- Gate n of batch row b: the row of activations against row n of the stacked weights, plus entry n of the
    stacked biases. The matrix product reads the transposed stack at (k, n), which is the stack at (n, k); the two
    broadcasts of the bias read entry n whatever the row. -/
theorem gates_apply (x0 : (⟨S8192x1024, .f32⟩ : BufTy).Contents (Elt Ideal)) (x1 : (⟨S8192x2048, .f32⟩ : BufTy).Contents (Elt Ideal))
    (x2 : (⟨S8192x1024, .f32⟩ : BufTy).Contents (Elt Ideal)) (x3 : (⟨S1024x4096, .f32⟩ : BufTy).Contents (Elt Ideal))
    (x4 : (⟨S1024, .f32⟩ : BufTy).Contents (Elt Ideal)) (x5 : (⟨S1024x4096, .f32⟩ : BufTy).Contents (Elt Ideal))
    (x6 : (⟨S1024, .f32⟩ : BufTy).Contents (Elt Ideal)) (x7 : (⟨S1024x4096, .f32⟩ : BufTy).Contents (Elt Ideal))
    (x8 : (⟨S1024, .f32⟩ : BufTy).Contents (Elt Ideal)) (b : Fin 8192) (n : Fin 3072) :
    Read.val_main_v7 (F := Ideal) x0 x1 x2 x3 x4 x5 x6 x7 x8 (ix2 b n)
      = gate (fun k => pick3 k (fun a => x0 (ix2 b a)) (fun a => x1 (ix2 b a)) (fun a => x2 (ix2 b a)))
          (fun n k => Read.val_main_v1 (F := Ideal) x3 x5 x7 (ix2 n k))
          (fun n => Read.val_main_v2 (F := Ideal) x4 x6 x8 (ix1 n)) n := by
  have el : ∀ k : Fin 4096, Read.lidx_main_v4 (ix2 b n) k = ix2 b k := fun k =>
    funext fun a => Fin.ext (by match a with | ⟨0, _⟩ => rfl | ⟨1, _⟩ => rfl)
  have er : ∀ k : Fin 4096, Read.idx_main_v3 (Read.ridx_main_v4 (ix2 b n) k) = ix2 n k := fun k =>
    funext fun a => Fin.ext (by match a with | ⟨0, _⟩ => rfl | ⟨1, _⟩ => rfl)
  have eb : Read.idx_main_v5 (Read.idx_main_v6 (ix2 b n)) = ix1 n :=
    funext fun a => Fin.ext (by match a with | ⟨0, _⟩ => rfl)
  rw [Read.val_main_v7_apply, Read.val_main_v4_apply, Read.val_main_v6_apply, Read.val_main_v5_apply, eb, Ideal.addf_def]
  unfold gate
  congr 1
  refine Finset.sum_congr rfl fun k _ => ?_
  rw [Read.val_main_v3_apply, el, er, acts_apply]

/-- Element (b, j) of the reference's result is the gated cell of batch row b at column j: the three bands of the
    gates are read at columns j, 1024 + j and 2048 + j, each quotient 1 / (1 + e^(−z)) is the sigmoid of z, and the
    blend is the specification's. -/
theorem res_apply (m : (ℓ : Loc nD τ sig) → Buf (Elt Ideal) ℓ) (c : Dev nD) (b : Fin 8192) (j : Fin 1024) :
    Cert.ReferenceIdeal.Value.res_out0 (F := Ideal) m c (ValueIdx.ix2 b j)
      = Cert.GatedCell.cellAt
          (fun k => Cert.GatedCell.pick3 k
            (fun a => m ((c.tc : Thread nD τ).loc main_arg0) (ValueIdx.ix2 b a))
            (fun a => m ((c.tc : Thread nD τ).loc main_arg1) (ValueIdx.ix2 b a))
            (fun a => m ((c.tc : Thread nD τ).loc main_arg2) (ValueIdx.ix2 b a)))
          (fun n k => (concatenate S3072x4096 0 [⟨S1024x4096, m ((c.tc : Thread nD τ).loc main_arg3)⟩, ⟨S1024x4096, m ((c.tc : Thread nD τ).loc main_arg5)⟩, ⟨S1024x4096, m ((c.tc : Thread nD τ).loc main_arg7)⟩] concatenates_S1024x4096_S1024x4096_S1024x4096_S3072x4096_d0) (ValueIdx.ix2 n k))
          (fun n => (concatenate S3072 0 [⟨S1024, m ((c.tc : Thread nD τ).loc main_arg4)⟩, ⟨S1024, m ((c.tc : Thread nD τ).loc main_arg6)⟩, ⟨S1024, m ((c.tc : Thread nD τ).loc main_arg8)⟩] concatenates_S1024_S1024_S1024_S3072_d0) (ValueIdx.ix1 n))
          (m ((c.tc : Thread nD τ).loc main_arg0) (ValueIdx.ix2 b j)) j := by
  have e8 : Read.idx_main_v8 (ix2 b j) = ix2 b (⟨j.val, by omega⟩ : Fin 3072) :=
    funext fun a => Fin.ext (by match a with | ⟨0, _⟩ => rfl | ⟨1, _⟩ => rfl)
  have e15 : Read.idx_main_v15 (ix2 b j) = ix2 b (⟨1024 + j.val, by omega⟩ : Fin 3072) :=
    funext fun a => Fin.ext (by match a with | ⟨0, _⟩ => rfl | ⟨1, _⟩ => rfl)
  have e22 : Read.idx_main_v22 (ix2 b j) = ix2 b (⟨2048 + j.val, by omega⟩ : Fin 3072) :=
    funext fun a => Fin.ext (by match a with | ⟨0, _⟩ => rfl | ⟨1, _⟩ => rfl)
  rw [show Value.res_out0 m c = _ from Read.val_main_v35_eq m c]
  rw [Read.val_main_v35_apply, Read.val_main_v31_apply, Read.val_main_v34_apply, Read.val_main_v33_apply,
    Read.val_main_v30_apply, Read.val_main_v23_apply, Read.val_main_v28_apply, Read.val_main_v26_apply,
    Read.val_main_v25_apply, Read.val_main_v24_apply, Read.val_main_v14_apply, Read.val_main_v21_apply,
    Read.val_main_v12_apply, Read.val_main_v19_apply, Read.val_main_v10_apply, Read.val_main_v17_apply,
    Read.val_main_v9_apply, Read.val_main_v16_apply, Read.val_main_v8_apply, Read.val_main_v15_apply,
    Read.val_main_v22_apply, e8, e15, e22, gates_apply, gates_apply, gates_apply,
    Read.val_main_v32_apply, Read.val_main_v29_apply, Read.val_main_v27_apply, Read.val_main_v13_apply,
    Read.val_main_v11_apply, Read.val_main_v20_apply, Read.val_main_v18_apply,
    Read.val_main_cst_5_apply, Read.val_main_cst_4_apply, Read.val_main_cst_3_apply, Read.val_main_cst_0_apply,
    Read.val_main_cst_apply, Read.val_main_cst_2_apply, Read.val_main_cst_1_apply]
  simp only [Ideal.hostDivf_def, Ideal.hostUnary_exp_def, Ideal.hostUnary_tanh_def, Ideal.hostNegf_def,
    Ideal.negf_def, Ideal.addf_def, Ideal.subf_def, Ideal.mulf_def, Ideal.ofBits_def]
  simp only [logistic_spelt]
  unfold cellAt mix Read.val_main_v1 Read.val_main_v2
  rfl

end Cert.GatedCell.Ref

end
-- ==== Proof.lean ====
/-
  The five claims of the certificate.

  Both printed kernels (the word-level one and its reading on the extended reals) run and leave their arguments as
  launched: the frame of the region behind its four host operations. The reference is a straight line of host operations;
  its run gives its frame and its result. The idealization rewrote nothing. On the extended reals the kernel's result
  array and the reference's are the same function of the argument arrays, entry by entry the gated cell
    α · tanh(g_c) + (1 − α) · h,  α = σ(σ(g_i) − σ(g_f)),  g = [h, x, glo] · Wᵀ + β:
  the kernel's matrix product into a zero accumulator and the reference's product with the transposed weights are one sum
  over the 4096 columns, the kernel's one sigmoid operation and the reference's quotient 1 / (1 + e^(−z)) are one function,
  rounding to bf16 is the identity, and neither side needs the inputs to be finite.
-/
import proofs.«128446_j42460046688677_2_alg».proof.Defs
import proofs.«128446_j42460046688677_2_alg».proof.Proof.Gen.Kernel
import proofs.«128446_j42460046688677_2_alg».proof.Proof.Gen.KernelIdeal
import proofs.«128446_j42460046688677_2_alg».proof.Proof.Gen.ReferenceIdeal
import proofs.«128446_j42460046688677_2_alg».proof.Proof.Gen.Pre_finite_inputs
import proofs.«128446_j42460046688677_2_alg».proof.Proof.Gen.ReferenceIdeal.Run
import proofs.«128446_j42460046688677_2_alg».proof.Proof.Gen.ReferenceIdeal.Read
import proofs.«128446_j42460046688677_2_alg».proof.Proof.FrameK
import proofs.«128446_j42460046688677_2_alg».proof.Proof.FrameKI
import proofs.«128446_j42460046688677_2_alg».proof.Proof.KernelValue
import proofs.«128446_j42460046688677_2_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the nine arguments, the kernel's result array is the gated cell of its arguments and the
    reference's result, entry by entry, is the gated cell of its own: the same extended real. -/
theorem algebraic : Cert.algebraic_KernelIdeal_ReferenceIdeal := by
  intro m ρ m' ρ' _ hagree
  refine ⟨fun c => Cert.GatedCell.KV.G m c, Cert.GatedCell.KV.run m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, j, rfl⟩ : ∃ (b : Fin 8192) (j : Fin 1024), i = ix2 b j := ⟨i 0, i 1, eq_ix2 i⟩
  refine (Cert.GatedCell.Ref.res_apply m' c b j).trans ?_
  obtain ⟨h0, h1, h2, h3, h4, h5, h6, h7, h8⟩ := hagree c
  rw [h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
